-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512 : Shape := ⟨1, ![512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S32768x512 .f32) (main_arg1 : FVec F S512 .f32) (main_arg2 : FVec F S512 .f32) (main_arg3 : FVec F S512 .f32) (main_arg4 : FVec F S512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_v13 main_v16
-- ==== Kernel.lean ====
abbrev S32768x512 : Shape := ⟨2, ![32768, 512]⟩
abbrev S512 : Shape := ⟨1, ![512]⟩
abbrev S_ : Shape := ⟨0, ![]⟩
abbrev S1x512 : Shape := ⟨2, ![1, 512]⟩
abbrev S4096x512 : Shape := ⟨2, ![4096, 512]⟩
abbrev S32768x512x1 : Shape := ⟨3, ![32768, 512, 1]⟩

abbrev nBuf : Space → Nat
  | .hbm => 114
  | .vmem => 10
  | .smem => 0
  | _ => 0

abbrev bufTy : (tb : Table) → Fin (tcTables nBuf tb) → BufTy
  | .hbm, ⟨0, _⟩ => ⟨S32768x512, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .i1⟩
  | .hbm, ⟨8, _⟩ => ⟨S512, .f32⟩
  | .hbm, ⟨9, _⟩ => ⟨S_, .f32⟩
  | .hbm, ⟨10, _⟩ => ⟨S512, .f32⟩
  | .hbm, ⟨11, _⟩ => ⟨S512, .i1⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S_, .f32⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S_, .f32⟩
  | .hbm, ⟨30, _⟩ => ⟨S512, .f32⟩
  | .hbm, ⟨31, _⟩ => ⟨S512, .f32⟩
  | .hbm, ⟨32, _⟩ => ⟨S_, .f32⟩
  | .hbm, ⟨33, _⟩ => ⟨S512, .f32⟩
  | .hbm, ⟨34, _⟩ => ⟨S512, .f32⟩
  | .hbm, ⟨35, _⟩ => ⟨S_, .f32⟩
  | .hbm, ⟨36, _⟩ => ⟨S512, .f32⟩
  | .hbm, ⟨37, _⟩ => ⟨S512, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S512, .f32⟩
  | .hbm, ⟨42, _⟩ => ⟨S512, .f32⟩
  | .hbm, ⟨43, _⟩ => ⟨S_, .f32⟩
  | .hbm, ⟨44, _⟩ => ⟨S512, .f32⟩
  | .hbm, ⟨45, _⟩ => ⟨S512, .f32⟩
  | .hbm, ⟨46, _⟩ => ⟨S_, .f32⟩
  | .hbm, ⟨47, _⟩ => ⟨S512, .f32⟩
  | .hbm, ⟨48, _⟩ => ⟨S512, .f32⟩
  | .hbm, ⟨49, _⟩ => ⟨S_, .f32⟩
  | .hbm, ⟨50, _⟩ => ⟨S512, .f32⟩
  | .hbm, ⟨51, _⟩ => ⟨S512, .f32⟩
  | .hbm, ⟨52, _⟩ => ⟨S_, .f32⟩
  | .hbm, ⟨53, _⟩ => ⟨S512, .f32⟩
  | .hbm, ⟨54, _⟩ => ⟨S512, .f32⟩
  | .hbm, ⟨55, _⟩ => ⟨S_, .f32⟩
  | .hbm, ⟨56, _⟩ => ⟨S512, .f32⟩
  | .hbm, ⟨57, _⟩ => ⟨S512, .f32⟩
  | .hbm, ⟨58, _⟩ => ⟨S512, .f32⟩
  | .hbm, ⟨59, _⟩ => ⟨S512, .f32⟩
  | .hbm, ⟨60, _⟩ => ⟨S_, .f32⟩
  | .hbm, ⟨61, _⟩ => ⟨S512, .f32⟩
  | .hbm, ⟨62, _⟩ => ⟨S512, .f32⟩
  | .hbm, ⟨63, _⟩ => ⟨S512, .f32⟩
  | .hbm, ⟨64, _⟩ => ⟨S_, .f32⟩
  | .hbm, ⟨65, _⟩ => ⟨S512, .f32⟩
  | .hbm, ⟨66, _⟩ => ⟨S512, .f32⟩
  | .hbm, ⟨67, _⟩ => ⟨S_, .f32⟩
  | .hbm, ⟨68, _⟩ => ⟨S512, .f32⟩
  | .hbm, ⟨69, _⟩ => ⟨S512, .f32⟩
  | .hbm, ⟨70, _⟩ => ⟨S_, .f32⟩
  | .hbm, ⟨71, _⟩ => ⟨S512, .f32⟩
  | .hbm, ⟨72, _⟩ => ⟨S512, .f32⟩
  | .hbm, ⟨73, _⟩ => ⟨S_, .f32⟩
  | .hbm, ⟨74, _⟩ => ⟨S512, .f32⟩
  | .hbm, ⟨75, _⟩ => ⟨S512, .f32⟩
  | .hbm, ⟨76, _⟩ => ⟨S512, .f32⟩
  | .hbm, ⟨77, _⟩ => ⟨S_, .f32⟩
  | .hbm, ⟨78, _⟩ => ⟨S512, .f32⟩
  | .hbm, ⟨79, _⟩ => ⟨S512, .f32⟩
  | .hbm, ⟨80, _⟩ => ⟨S512, .f32⟩
  | .hbm, ⟨81, _⟩ => ⟨S512, .f32⟩
  | .hbm, ⟨82, _⟩ => ⟨S_, .f32⟩
  | .hbm, ⟨83, _⟩ => ⟨S512, .f32⟩
  | .hbm, ⟨84, _⟩ => ⟨S512, .f32⟩
  | .hbm, ⟨85, _⟩ => ⟨S_, .f32⟩
  | .hbm, ⟨86, _⟩ => ⟨S512, .f32⟩
  | .hbm, ⟨87, _⟩ => ⟨S512, .f32⟩
  | .hbm, ⟨88, _⟩ => ⟨S512, .f32⟩
  | .hbm, ⟨89, _⟩ => ⟨S512, .f32⟩
  | .hbm, ⟨90, _⟩ => ⟨S_, .f32⟩
  | .hbm, ⟨91, _⟩ => ⟨S512, .f32⟩
  | .hbm, ⟨92, _⟩ => ⟨S512, .f32⟩
  | .hbm, ⟨93, _⟩ => ⟨S512, .f32⟩
  | .hbm, ⟨94, _⟩ => ⟨S_, .f32⟩
  | .hbm, ⟨95, _⟩ => ⟨S512, .f32⟩
  | .hbm, ⟨96, _⟩ => ⟨S512, .f32⟩
  | .hbm, ⟨97, _⟩ => ⟨S_, .f32⟩
  | .hbm, ⟨98, _⟩ => ⟨S512, .f32⟩
  | .hbm, ⟨99, _⟩ => ⟨S512, .f32⟩
  | .hbm, ⟨100, _⟩ => ⟨S_, .f32⟩
  | .hbm, ⟨101, _⟩ => ⟨S512, .f32⟩
  | .hbm, ⟨102, _⟩ => ⟨S512, .f32⟩
  | .hbm, ⟨103, _⟩ => ⟨S512, .f32⟩
  | .hbm, ⟨104, _⟩ => ⟨S512, .f32⟩
  | .hbm, ⟨105, _⟩ => ⟨S512, .f32⟩
  | .hbm, ⟨106, _⟩ => ⟨S1x512, .f32⟩
  | .hbm, ⟨107, _⟩ => ⟨S1x512, .f32⟩
  | .hbm, ⟨108, _⟩ => ⟨S1x512, .f32⟩
  | .hbm, ⟨109, _⟩ => ⟨S1x512, .f32⟩
  | .hbm, ⟨110, _⟩ => ⟨S1x512, .f32⟩
  | .hbm, ⟨111, _⟩ => ⟨S1x512, .f32⟩
  | .hbm, ⟨112, _⟩ => ⟨S32768x512, .f32⟩
  | .hbm, ⟨113, _⟩ => ⟨S32768x512x1, .f32⟩
  | .local _ .vmem, ⟨0, _⟩ => ⟨S4096x512, .f32⟩
  | .local _ .vmem, ⟨1, _⟩ => ⟨S4096x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S4096x512, .f32⟩
  | .local _ .vmem, ⟨9, _⟩ => ⟨S4096x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_cst_6 : Ref sig .tc := ⟨.hbm, 29, rfl⟩
abbrev main_v15 : Ref sig .tc := ⟨.hbm, 30, rfl⟩
abbrev main_v16 : Ref sig .tc := ⟨.hbm, 31, rfl⟩
abbrev main_cst_7 : Ref sig .tc := ⟨.hbm, 32, rfl⟩
abbrev main_v17 : Ref sig .tc := ⟨.hbm, 33, rfl⟩
abbrev main_v18 : Ref sig .tc := ⟨.hbm, 34, rfl⟩
abbrev main_cst_8 : Ref sig .tc := ⟨.hbm, 35, rfl⟩
abbrev main_v19 : Ref sig .tc := ⟨.hbm, 36, rfl⟩
abbrev main_v20 : Ref sig .tc := ⟨.hbm, 37, rfl⟩
abbrev main_cst_9 : Ref sig .tc := ⟨.hbm, 38, rfl⟩
abbrev main_cst_10 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v21 : Ref sig .tc := ⟨.hbm, 45, rfl⟩
abbrev main_cst_11 : Ref sig .tc := ⟨.hbm, 46, rfl⟩
abbrev main_v22 : Ref sig .tc := ⟨.hbm, 47, rfl⟩
abbrev main_v23 : Ref sig .tc := ⟨.hbm, 48, rfl⟩
abbrev main_cst_12 : Ref sig .tc := ⟨.hbm, 49, rfl⟩
abbrev main_v24 : Ref sig .tc := ⟨.hbm, 50, rfl⟩
abbrev main_v25 : Ref sig .tc := ⟨.hbm, 51, rfl⟩
abbrev main_cst_13 : Ref sig .tc := ⟨.hbm, 52, rfl⟩
abbrev main_v26 : Ref sig .tc := ⟨.hbm, 53, rfl⟩
abbrev main_v27 : Ref sig .tc := ⟨.hbm, 54, rfl⟩
abbrev main_cst_14 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_15 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_16 : Ref sig .tc := ⟨.hbm, 64, rfl⟩
abbrev main_v35 : Ref sig .tc := ⟨.hbm, 65, rfl⟩
abbrev main_v36 : Ref sig .tc := ⟨.hbm, 66, rfl⟩
abbrev main_cst_17 : Ref sig .tc := ⟨.hbm, 67, rfl⟩
abbrev main_v37 : Ref sig .tc := ⟨.hbm, 68, rfl⟩
abbrev main_v38 : Ref sig .tc := ⟨.hbm, 69, rfl⟩
abbrev main_cst_18 : Ref sig .tc := ⟨.hbm, 70, rfl⟩
abbrev main_v39 : Ref sig .tc := ⟨.hbm, 71, rfl⟩
abbrev main_v40 : Ref sig .tc := ⟨.hbm, 72, rfl⟩
abbrev main_cst_19 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_20 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_21 : Ref sig .tc := ⟨.hbm, 82, rfl⟩
abbrev main_v48 : Ref sig .tc := ⟨.hbm, 83, rfl⟩
abbrev main_v49 : Ref sig .tc := ⟨.hbm, 84, rfl⟩
abbrev main_cst_22 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_23 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_24 : Ref sig .tc := ⟨.hbm, 94, rfl⟩
abbrev main_v57 : Ref sig .tc := ⟨.hbm, 95, rfl⟩
abbrev main_v58 : Ref sig .tc := ⟨.hbm, 96, rfl⟩
abbrev main_cst_25 : Ref sig .tc := ⟨.hbm, 97, rfl⟩
abbrev main_v59 : Ref sig .tc := ⟨.hbm, 98, rfl⟩
abbrev main_v60 : Ref sig .tc := ⟨.hbm, 99, rfl⟩
abbrev main_cst_26 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S512 : S_.BroadcastsInDim S512 (![] : Fin 0 → Fin S512.rank)
  shapeCasts_S512_S1x512 : S512.ShapeCasts S1x512
  inb_S4096x512_S4096x512_0_0 : ∀ a, (![0, 0] : Fin 2 → Nat) a + S4096x512.size a ≤ S4096x512.size a
  h_S4096x512 : 0 < S4096x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  bcast_S32768x512_S32768x512x1_0_1 : S32768x512.BroadcastsInDim S32768x512x1 (![0, 1] : Fin 2 → Fin S32768x512x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S32768x512.size a
  hwx0_0 : ∀ i : grid0.Coords, EltTy.bits .f32 = 32 ∨ (Rect.block (s := S32768x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x512.size a ≤ S32768x512.size a
  hwx0_7 : ∀ i : grid0.Coords, EltTy.bits .f32 = 32 ∨ (Rect.block (s := S32768x512) S4096x512.size (cc0_transform_7 i) (hinb0_7 i)).WholeWords (EltTy.packing .f32)

variable [Facts₀]

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v66) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v67) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v68) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v69) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v70) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v71) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v72) S4096x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x512 : Shape := ⟨2, ![32768, 512]⟩
abbrev S512 : Shape := ⟨1, ![512]⟩
abbrev S_ : Shape := ⟨0, ![]⟩
abbrev S1x512 : Shape := ⟨2, ![1, 512]⟩
abbrev S32768x512x1 : Shape := ⟨3, ![32768, 512, 1]⟩

abbrev nBuf : Space → Nat
  | .hbm => 156
  | .vmem => 0
  | .smem => 0
  | _ => 0

abbrev hbmTy0_0 (i : Nat) : BufTy := match i % 128 with
  | 0 => ⟨S32768x512, .f32⟩
  | 1 => ⟨S512, .f32⟩
  | 2 => ⟨S512, .f32⟩
  | 3 => ⟨S512, .f32⟩
  | 4 => ⟨S512, .f32⟩
  | 5 => ⟨S_, .f32⟩
  | 6 => ⟨S512, .f32⟩
  | 7 => ⟨S512, .i1⟩
  | 8 => ⟨S_, .f32⟩
  | 9 => ⟨S512, .f32⟩
  | 10 => ⟨S512, .i1⟩
  | 11 => ⟨S_, .f32⟩
  | 12 => ⟨S512, .f32⟩
  | 13 => ⟨S512, .f32⟩
  | 14 => ⟨S_, .f32⟩
  | 15 => ⟨S512, .f32⟩
  | 16 => ⟨S512, .f32⟩
  | 17 => ⟨S512, .f32⟩
  | 18 => ⟨S_, .f32⟩
  | 19 => ⟨S_, .f32⟩
  | 20 => ⟨S512, .f32⟩
  | 21 => ⟨S512, .f32⟩
  | 22 => ⟨S_, .f32⟩
  | 23 => ⟨S512, .f32⟩
  | 24 => ⟨S512, .f32⟩
  | 25 => ⟨S_, .f32⟩
  | 26 => ⟨S512, .f32⟩
  | 27 => ⟨S512, .f32⟩
  | 28 => ⟨S_, .f32⟩
  | 29 => ⟨S512, .f32⟩
  | 30 => ⟨S512, .f32⟩
  | 31 => ⟨S_, .f32⟩
  | 32 => ⟨S512, .f32⟩
  | 33 => ⟨S512, .f32⟩
  | 34 => ⟨S_, .f32⟩
  | 35 => ⟨S512, .f32⟩
  | 36 => ⟨S512, .f32⟩
  | 37 => ⟨S_, .f32⟩
  | 38 => ⟨S_, .f32⟩
  | 39 => ⟨S_, .f32⟩
  | 40 => ⟨S512, .f32⟩
  | 41 => ⟨S512, .f32⟩
  | 42 => ⟨S_, .f32⟩
  | 43 => ⟨S512, .f32⟩
  | 44 => ⟨S512, .f32⟩
  | 45 => ⟨S_, .f32⟩
  | 46 => ⟨S512, .f32⟩
  | 47 => ⟨S512, .f32⟩
  | 48 => ⟨S_, .f32⟩
  | 49 => ⟨S512, .f32⟩
  | 50 => ⟨S512, .f32⟩
  | 51 => ⟨S_, .f32⟩
  | 52 => ⟨S512, .f32⟩
  | 53 => ⟨S512, .f32⟩
  | 54 => ⟨S_, .f32⟩
  | 55 => ⟨S512, .f32⟩
  | 56 => ⟨S512, .f32⟩
  | 57 => ⟨S512, .f32⟩
  | 58 => ⟨S512, .f32⟩
  | 59 => ⟨S_, .f32⟩
  | 60 => ⟨S512, .f32⟩
  | 61 => ⟨S512, .f32⟩
  | 62 => ⟨S512, .f32⟩
  | 63 => ⟨S_, .f32⟩
  | 64 => ⟨S512, .f32⟩
  | 65 => ⟨S512, .f32⟩
  | 66 => ⟨S_, .f32⟩
  | 67 => ⟨S512, .f32⟩
  | 68 => ⟨S512, .f32⟩
  | 69 => ⟨S_, .f32⟩
  | 70 => ⟨S512, .f32⟩
  | 71 => ⟨S512, .f32⟩
  | 72 => ⟨S_, .f32⟩
  | 73 => ⟨S512, .f32⟩
  | 74 => ⟨S512, .f32⟩
  | 75 => ⟨S512, .f32⟩
  | 76 => ⟨S_, .f32⟩
  | 77 => ⟨S512, .f32⟩
  | 78 => ⟨S512, .f32⟩
  | 79 => ⟨S512, .f32⟩
  | 80 => ⟨S512, .f32⟩
  | 81 => ⟨S_, .f32⟩
  | 82 => ⟨S512, .f32⟩
  | 83 => ⟨S512, .f32⟩
  | 84 => ⟨S_, .f32⟩
  | 85 => ⟨S512, .f32⟩
  | 86 => ⟨S512, .f32⟩
  | 87 => ⟨S512, .f32⟩
  | 88 => ⟨S512, .f32⟩
  | 89 => ⟨S_, .f32⟩
  | 90 => ⟨S512, .f32⟩
  | 91 => ⟨S512, .f32⟩
  | 92 => ⟨S512, .f32⟩
  | 93 => ⟨S_, .f32⟩
  | 94 => ⟨S512, .f32⟩
  | 95 => ⟨S512, .f32⟩
  | 96 => ⟨S_, .f32⟩
  | 97 => ⟨S512, .f32⟩
  | 98 => ⟨S512, .f32⟩
  | 99 => ⟨S_, .f32⟩
  | 100 => ⟨S512, .f32⟩
  | 101 => ⟨S512, .f32⟩
  | 102 => ⟨S512, .f32⟩
  | 103 => ⟨S512, .f32⟩
  | 104 => ⟨S512, .f32⟩
  | 105 => ⟨S1x512, .f32⟩
  | 106 => ⟨S32768x512, .f32⟩
  | 107 => ⟨S32768x512, .f32⟩
  | 108 => ⟨S1x512, .f32⟩
  | 109 => ⟨S32768x512, .f32⟩
  | 110 => ⟨S32768x512, .f32⟩
  | 111 => ⟨S_, .f32⟩
  | 112 => ⟨S32768x512, .f32⟩
  | 113 => ⟨S32768x512, .f32⟩
  | 114 => ⟨S_, .f32⟩
  | 115 => ⟨S32768x512, .f32⟩
  | 116 => ⟨S32768x512, .f32⟩
  | 117 => ⟨S1x512, .f32⟩
  | 118 => ⟨S32768x512, .f32⟩
  | 119 => ⟨S32768x512, .f32⟩
  | 120 => ⟨S_, .f32⟩
  | 121 => ⟨S32768x512, .f32⟩
  | 122 => ⟨S32768x512, .f32⟩
  | 123 => ⟨S_, .f32⟩
  | 124 => ⟨S32768x512, .f32⟩
  | 125 => ⟨S32768x512, .f32⟩
  | 126 => ⟨S32768x512, .f32⟩
  | 127 => ⟨S1x512, .f32⟩
  | _ => ⟨S32768x512, .f32⟩

abbrev hbmTy0_1 (i : Nat) : BufTy := match i % 128 with
  | 0 => ⟨S32768x512, .f32⟩
  | 1 => ⟨S32768x512, .f32⟩
  | 2 => ⟨S_, .f32⟩
  | 3 => ⟨S32768x512, .f32⟩
  | 4 => ⟨S32768x512, .f32⟩
  | 5 => ⟨S32768x512, .f32⟩
  | 6 => ⟨S_, .f32⟩
  | 7 => ⟨S32768x512, .f32⟩
  | 8 => ⟨S32768x512, .f32⟩
  | 9 => ⟨S1x512, .f32⟩
  | 10 => ⟨S32768x512, .f32⟩
  | 11 => ⟨S32768x512, .f32⟩
  | 12 => ⟨S1x512, .f32⟩
  | 13 => ⟨S32768x512, .f32⟩
  | 14 => ⟨S32768x512, .f32⟩
  | 15 => ⟨S_, .f32⟩
  | 16 => ⟨S32768x512, .f32⟩
  | 17 => ⟨S32768x512, .f32⟩
  | 18 => ⟨S32768x512, .f32⟩
  | 19 => ⟨S_, .f32⟩
  | 20 => ⟨S32768x512, .f32⟩
  | 21 => ⟨S32768x512, .f32⟩
  | 22 => ⟨S_, .f32⟩
  | 23 => ⟨S_, .f32⟩
  | 24 => ⟨S32768x512, .i1⟩
  | 25 => ⟨S32768x512, .f32⟩
  | 26 => ⟨S32768x512, .f32⟩
  | 27 => ⟨S32768x512x1, .f32⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_cst_5 : Ref sig .tc := ⟨.hbm, 25, rfl⟩
abbrev main_v12 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩
abbrev main_v15 : Ref sig .tc := ⟨.hbm, 30, rfl⟩
abbrev main_cst_7 : Ref sig .tc := ⟨.hbm, 31, rfl⟩
abbrev main_v16 : Ref sig .tc := ⟨.hbm, 32, rfl⟩
abbrev main_v17 : Ref sig .tc := ⟨.hbm, 33, rfl⟩
abbrev main_cst_8 : Ref sig .tc := ⟨.hbm, 34, rfl⟩
abbrev main_v18 : Ref sig .tc := ⟨.hbm, 35, rfl⟩
abbrev main_v19 : Ref sig .tc := ⟨.hbm, 36, rfl⟩
abbrev main_cst_9 : Ref sig .tc := ⟨.hbm, 37, rfl⟩
abbrev main_cst_10 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v20 : Ref sig .tc := ⟨.hbm, 44, rfl⟩
abbrev main_cst_11 : Ref sig .tc := ⟨.hbm, 45, rfl⟩
abbrev main_v21 : Ref sig .tc := ⟨.hbm, 46, rfl⟩
abbrev main_v22 : Ref sig .tc := ⟨.hbm, 47, rfl⟩
abbrev main_cst_12 : Ref sig .tc := ⟨.hbm, 48, rfl⟩
abbrev main_v23 : Ref sig .tc := ⟨.hbm, 49, rfl⟩
abbrev main_v24 : Ref sig .tc := ⟨.hbm, 50, rfl⟩
abbrev main_cst_13 : Ref sig .tc := ⟨.hbm, 51, rfl⟩
abbrev main_v25 : Ref sig .tc := ⟨.hbm, 52, rfl⟩
abbrev main_v26 : Ref sig .tc := ⟨.hbm, 53, rfl⟩
abbrev main_cst_14 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_15 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_16 : Ref sig .tc := ⟨.hbm, 63, rfl⟩
abbrev main_v34 : Ref sig .tc := ⟨.hbm, 64, rfl⟩
abbrev main_v35 : Ref sig .tc := ⟨.hbm, 65, rfl⟩
abbrev main_cst_17 : Ref sig .tc := ⟨.hbm, 66, rfl⟩
abbrev main_v36 : Ref sig .tc := ⟨.hbm, 67, rfl⟩
abbrev main_v37 : Ref sig .tc := ⟨.hbm, 68, rfl⟩
abbrev main_cst_18 : Ref sig .tc := ⟨.hbm, 69, rfl⟩
abbrev main_v38 : Ref sig .tc := ⟨.hbm, 70, rfl⟩
abbrev main_v39 : Ref sig .tc := ⟨.hbm, 71, rfl⟩
abbrev main_cst_19 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_20 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_21 : Ref sig .tc := ⟨.hbm, 81, rfl⟩
abbrev main_v47 : Ref sig .tc := ⟨.hbm, 82, rfl⟩
abbrev main_v48 : Ref sig .tc := ⟨.hbm, 83, rfl⟩
abbrev main_cst_22 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_23 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_24 : Ref sig .tc := ⟨.hbm, 93, rfl⟩
abbrev main_v56 : Ref sig .tc := ⟨.hbm, 94, rfl⟩
abbrev main_v57 : Ref sig .tc := ⟨.hbm, 95, rfl⟩
abbrev main_cst_25 : Ref sig .tc := ⟨.hbm, 96, rfl⟩
abbrev main_v58 : Ref sig .tc := ⟨.hbm, 97, rfl⟩
abbrev main_v59 : Ref sig .tc := ⟨.hbm, 98, rfl⟩
abbrev main_cst_26 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_v65 : Ref sig .tc := ⟨.hbm, 110, rfl⟩
abbrev main_cst_27 : Ref sig .tc := ⟨.hbm, 111, rfl⟩
abbrev main_v66 : Ref sig .tc := ⟨.hbm, 112, rfl⟩
abbrev main_v67 : Ref sig .tc := ⟨.hbm, 113, rfl⟩
abbrev main_cst_28 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_cst_29 : Ref sig .tc := ⟨.hbm, 120, rfl⟩
abbrev main_v73 : Ref sig .tc := ⟨.hbm, 121, rfl⟩
abbrev main_v74 : Ref sig .tc := ⟨.hbm, 122, rfl⟩
abbrev main_cst_30 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_cst_31 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_cst_32 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_cst_33 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_34 : Ref sig .tc := ⟨.hbm, 147, rfl⟩
abbrev main_v95 : Ref sig .tc := ⟨.hbm, 148, rfl⟩
abbrev main_v96 : Ref sig .tc := ⟨.hbm, 149, rfl⟩
abbrev main_cst_35 : Ref sig .tc := ⟨.hbm, 150, rfl⟩
abbrev main_call3_v0 : Ref sig .tc := ⟨.hbm, 151, rfl⟩
abbrev main_call3_v1 : Ref sig .tc := ⟨.hbm, 152, rfl⟩
abbrev main_call3_v2 : Ref sig .tc := ⟨.hbm, 153, rfl⟩
abbrev main_v97 : Ref sig .tc := ⟨.hbm, 154, rfl⟩
abbrev main_v98 : Ref sig .tc := ⟨.hbm, 155, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  bcast_S512_S32768x512_1 : S512.BroadcastsInDim S32768x512 (![1] : Fin 1 → Fin S32768x512.rank)
  bcast_S32768x512_S32768x512x1_0_1 : S32768x512.BroadcastsInDim S32768x512x1 (![0, 1] : Fin 2 → Fin S32768x512x1.rank)

variable [Facts₀]

class Facts : Prop extends Facts₀ where

variable [Facts]
-- ==== Proof.LibIndicator.lean ====
/-
  A one-bit word as a number, and a product by it as a choice, over the extended reals.

  Converted to a float, a one-bit word is exactly `0` or `1`: the indicator of the bit. On the extended reals `a * 1 = a` and
  `a * 0 = 0` for EVERY `a` — also `⊤` and `⊥`, where IEEE arithmetic would answer a NaN —, so multiplying by the indicator is
  choosing between `a` and zero, with no finiteness condition on `a`. This is what joins a kernel that switches entries off
  by a product with a `0`/`1` mask to a reference that switches them off by a `select` (`jnp.where(mask, a, 0)`).
  Stated for scalars (`mul_indicator`) and entry by entry for whole arrays of any shape (`mulf_uitofp_eq_select`).
-/
import Idealize.ShloMosaic.PureOps.Ideal
import Idealize.ShloMosaic.PureOps.Ideal.Laws

noncomputable section

namespace Cert.LibIndicator

open Idealize.ShloMosaic

/-- A one-bit word is `0` or `1`. -/
theorem bit_cases (b : BitVec 1) : b = 0 ∨ b = 1 := by
  revert b; decide

/-- At the ideal values the unsigned conversion of a word to a float is its number, exactly. -/
theorem uitofp_eq {w : Nat} (φ : FTy) (b : BitVec w) : FloatOps.uitofp (F := Ideal) φ b = ((b.toNat : ℝ) : EReal) := rfl

/-- Multiplying by a bit's indicator is choosing between the amount and zero (the f32 zero word): `a * 1 = a`, `a * 0 = 0` on
    all of the extended reals. -/
theorem mul_indicator (a : EReal) (b : BitVec 1) :
    a * ((b.toNat : ℝ) : EReal) = Scalar.select b a (Ideal.ofBits .f32 0x00000000#32) := by
  rcases bit_cases b with rfl | rfl
  · show a * (((0 : ℕ) : ℝ) : EReal) = if (0 : BitVec 1) = 1 then a else Ideal.ofBits .f32 0x00000000#32
    rw [if_neg (by decide), Nat.cast_zero, EReal.coe_zero, mul_zero]
    exact Ideal.ofBits_zero_f32.symm
  · show a * (((1 : ℕ) : ℝ) : EReal) = if (1 : BitVec 1) = 1 then a else Ideal.ofBits .f32 0x00000000#32
    rw [if_pos rfl, Nat.cast_one, EReal.coe_one, mul_one]

/-- For whole arrays of any shape: an f32 array times the float conversion of a one-bit mask is, entry by entry, the choice
    between the array and zero by the mask. -/
theorem mulf_uitofp_eq_select {s : Shape} (v : FVec Ideal s .f32) (c : IVec s 1) :
    mulf v (uitofp (F := Ideal) .f32 c) = select c v (fun _ => Ideal.ofBits .f32 0x00000000#32) :=
  funext fun i => mul_indicator (v i) (c i)

end Cert.LibIndicator

end
-- ==== Proof.Rule.lean ====
/-
  The charging rule of one car in one sample, over the extended reals.

  A car's net action `y` is the request `x` clipped into the car's feasible interval `[lo, hi]`. Its charging part is the
  smallest amount that keeps the next state of charge `soc + y / η` inside `[socLo, socMax]`: at least `y`, at least
  `0`, at least `(soc + y/η - socMax) / k`; at most `acMax`, at most `y - adLo`, at most `(soc + y/η - socLo) / k`; and
  never negative. A car that has left (`on = 0`) charges nothing.

  The interval's ends `lo`, `hi`, the discharge bound `adLo` and the floor `socLo` depend on the car only — one number per
  column —, the request on sample and car. `G` is the whole result, entry by entry, over any such columns.

  Two ways of switching a departed car off meet here: multiplying by the indicator `1` / `0` of `on`, and choosing between
  the amount and `0`. On the extended reals `a * 1 = a` and `a * 0 = 0` for EVERY `a` (also an infinite one), so they agree
  with no condition on `a` (`mul_indicator`, from the general statement in Proof/LibIndicator.lean).
-/
import Idealize.ShloMosaic.PureOps.Ideal
import Idealize.ShloMosaic.PureOps.Ideal.Laws
import Idealize.ShloMosaic.Lib.ValueIdx
import proofs.«155006_j57595511439508_1_alg».proof.Proof.LibIndicator

noncomputable section

namespace Cert.Charge

open Idealize.ShloMosaic Idealize.ShloMosaic.ValueIdx

/-- The rule's numbers, each the value of the f32 word both programs carry. -/
abbrev zero : EReal := Ideal.ofBits .f32 0x00000000#32
/-- The discharging efficiency η (the word of 0.95). -/
abbrev eta : EReal := Ideal.ofBits .f32 0x3F733333#32
/-- The largest state of charge (the word of 0.97). -/
abbrev socMax : EReal := Ideal.ofBits .f32 0x3F7851EC#32
/-- The slope k = 1/η - η of the state of charge in the charging part at a fixed net action. -/
abbrev slope : EReal := Ideal.ofBits .f32 0x3DD23081#32
/-- The largest charging amount (the word of 0.165). -/
abbrev acMax : EReal := Ideal.ofBits .f32 0x3E28F5C3#32

/-- The net action: the request clipped into `[lo, hi]` (the upper end wins when the interval is empty). -/
def net (x lo hi : EReal) : EReal := min hi (max lo x)

/-- The charging part of the net action `y` for a car with discharge bound `adLo`, floor `socLo` and charge `soc`. -/
def part (y adLo socLo soc : EReal) : EReal :=
  max (min (min (max (max y zero) (Ideal.div (soc + Ideal.div y eta - socMax) slope)) (min acMax (y - adLo)))
    (Ideal.div (soc + Ideal.div y eta - socLo) slope)) zero

/-- The charging amount of the request `x`. -/
def charge (x lo hi adLo socLo soc : EReal) : EReal := part (net x lo hi) adLo socLo soc

/-- Multiplying by a bit's indicator is choosing between the amount and zero: `a * 1 = a`, `a * 0 = 0` on all of the
    extended reals. -/
theorem mul_indicator (a : EReal) (b : BitVec 1) : a * ((b.toNat : ℝ) : EReal) = Scalar.select b a zero :=
  Cert.LibIndicator.mul_indicator a b

/-- THE RESULT, entry by entry: sample `i 0`, car `i 1` (the last axis has one place). The columns `lo hi adLo socLo soc`
    hold one number per car, `on` one bit per car. -/
def G (x : (⟨2, ![32768, 512]⟩ : Shape).Idx → EReal) (lo hi adLo socLo soc : (⟨1, ![512]⟩ : Shape).Idx → EReal)
    (on : (⟨1, ![512]⟩ : Shape).Idx → BitVec 1) : (⟨3, ![32768, 512, 1]⟩ : Shape).Idx → EReal :=
  fun i => Scalar.select (on (ix1 (i 1)))
    (charge (x (ix2 (i 0) (i 1))) (lo (ix1 (i 1))) (hi (ix1 (i 1))) (adLo (ix1 (i 1))) (socLo (ix1 (i 1))) (soc (ix1 (i 1)))) zero

end Cert.Charge

end
-- ==== Proof.RefRule.lean ====
/-
  The reference computes the rule.

  The reference first works out, per car, the feasible interval's ends, the discharge bound, the floor of the state of charge
  and the bit "still here" (its stages `val_main_v64`, `val_main_v42`, `val_main_v9`, `val_main_v20`, `val_main_v1`, each a
  function of the four per-car inputs), then broadcasts each of them down the samples and applies the rule entry by entry,
  and at the end chooses between the amount and zero by the bit. Read at an entry — sample `p`, car `q` — every
  broadcast column is the column at the car, every broadcast constant its word, and what is left is `Charge.G` of the
  reference's own columns.
-/
import proofs.«155006_j57595511439508_1_alg».proof.Proof.Gen.ReferenceIdeal.Read
import proofs.«155006_j57595511439508_1_alg».proof.Proof.Rule

noncomputable section

namespace Cert.Charge.Ref

open Cert.ReferenceIdeal Cert.ReferenceIdeal.Gen Cert.ReferenceIdeal.Read
open Idealize.ShloMosaic Idealize.ShloMosaic.ValueIdx

/-- Entry `(p, q, u)` of the three-axis result sits at sample `p`, car `q` of the two-axis array it is broadcast from. -/
theorem entry_ix (p : Fin 32768) (q : Fin 512) (u : Fin 1) : idx_main_v98 (ix3 p q u) = ix2 p q :=
  funext fun a => by match a with | ⟨0, _⟩ => rfl | ⟨1, _⟩ => rfl

/-! A column broadcast first to one row and then down the samples is read, at sample `p` and car `q`, at the car: one
    equation per pair of broadcasts the reference makes. -/

theorem car_lo (p : Fin 32768) (q : Fin 512) : idx_main_call2_v0 (idx_main_call2_v1 (ix2 p q)) = ix1 q :=
  funext fun a => by match a with | ⟨0, _⟩ => rfl
theorem car_hi (p : Fin 32768) (q : Fin 512) : idx_main_call2_v3 (idx_main_call2_v4 (ix2 p q)) = ix1 q :=
  funext fun a => by match a with | ⟨0, _⟩ => rfl
theorem car_soc (p : Fin 32768) (q : Fin 512) : idx_main_v70 (idx_main_v71 (ix2 p q)) = ix1 q :=
  funext fun a => by match a with | ⟨0, _⟩ => rfl
theorem car_adLo (p : Fin 32768) (q : Fin 512) : idx_main_v78 (idx_main_v79 (ix2 p q)) = ix1 q :=
  funext fun a => by match a with | ⟨0, _⟩ => rfl
theorem car_soc' (p : Fin 32768) (q : Fin 512) : idx_main_v86 (idx_main_v87 (ix2 p q)) = ix1 q :=
  funext fun a => by match a with | ⟨0, _⟩ => rfl
theorem car_socLo (p : Fin 32768) (q : Fin 512) : idx_main_v89 (idx_main_v90 (ix2 p q)) = ix1 q :=
  funext fun a => by match a with | ⟨0, _⟩ => rfl
theorem car_on (p : Fin 32768) (q : Fin 512) : idx_main_call3_v1 (ix2 p q) = ix1 q :=
  funext fun a => by match a with | ⟨0, _⟩ => rfl

/-- THE REFERENCE'S RESULT is the rule applied to its own per-car columns: the interval `[val_main_v64, val_main_v42]`, the
    discharge bound `val_main_v9`, the floor `val_main_v20`, the charge `x2` itself and the bit `val_main_v1`. -/
theorem result_eq (x0 : S32768x512.Idx → EReal) (x1 x2 x3 x4 : S512.Idx → EReal) :
    val_main_v98 (F := Ideal) x0 x1 x2 x3 x4
      = Charge.G x0 (val_main_v64 (F := Ideal) x1 x2 x3 x4) (val_main_v42 (F := Ideal) x2 x3 x4)
          (val_main_v9 (F := Ideal) x3 x4) (val_main_v20 (F := Ideal) x1) x2 (val_main_v1 (F := Ideal) x1) := by
  funext i
  obtain ⟨p, q, u, rfl⟩ : ∃ (p : Fin 32768) (q : Fin 512) (u : Fin 1), i = ix3 p q u := ⟨i 0, i 1, i 2, eq_ix3 i⟩
  rw [val_main_v98_apply, entry_ix p q u]
  simp only [val_main_v97_apply, val_main_call3_v1_apply, val_main_call3_v2_apply, val_main_call3_v0_apply,
    val_main_cst_35_apply, val_main_v96_apply, val_main_v95_apply, val_main_cst_34_apply, val_main_v94_apply,
    val_main_v83_apply, val_main_v77_apply, val_main_v67_apply, val_main_v66_apply, val_main_cst_27_apply,
    val_main_v76_apply, val_main_v75_apply, val_main_cst_30_apply, val_main_v74_apply, val_main_v73_apply,
    val_main_cst_29_apply, val_main_v72_apply, val_main_v71_apply, val_main_v70_apply, val_main_v69_apply,
    val_main_v68_apply, val_main_cst_28_apply, val_main_v82_apply, val_main_v81_apply, val_main_cst_31_apply,
    val_main_v80_apply, val_main_v79_apply, val_main_v78_apply, val_main_v93_apply, val_main_v92_apply,
    val_main_cst_33_apply, val_main_v91_apply, val_main_v90_apply, val_main_v89_apply, val_main_v88_apply,
    val_main_v87_apply, val_main_v86_apply, val_main_v85_apply, val_main_v84_apply, val_main_cst_32_apply,
    val_main_v65_apply, val_main_call2_v4_apply, val_main_call2_v3_apply, val_main_call2_v2_apply,
    val_main_call2_v1_apply, val_main_call2_v0_apply, car_lo, car_hi, car_soc, car_adLo, car_soc', car_socLo, car_on]
  rfl

end Cert.Charge.Ref

end
-- ==== Proof.Body.lean ====
/-
  What the kernel's body computes at one entry of its block.

  The body loads a block of 4096 samples by 512 cars of the request and six one-row arrays — the feasible interval's two
  ends, the discharge bound, the floor of the state of charge, the charge, and an indicator —, repeats each row down the
  4096 samples, and applies the charging rule entry by entry, ending with a product by the indicator. At sample `p` and car
  `q` of the block every repeated row is the row at `q`, every splat constant is its word, and the arithmetic is the rule's.
-/
import proofs.«155006_j57595511439508_1_alg».proof.Proof.Gen.KernelIdeal.Skeleton
import proofs.«155006_j57595511439508_1_alg».proof.Proof.Rule
import Idealize.ShloMosaic.Lib.ValueIdx
import Idealize.ShloMosaic.Lib.ValueLayout
import Idealize.ShloMosaic.Lib.Pipeline.Value

noncomputable section

namespace Cert.Charge.Body

open Cert.KernelIdeal Cert.KernelIdeal.Gen
open Idealize.ShloMosaic Idealize.ShloMosaic.ValueIdx

/-- The stored value at sample `p`, car `q` of the block: the rule's amount for the request there and the rows at `q`, times
    the indicator row at `q`. -/
theorem stored_apply (x0 : S4096x512.Idx → EReal) (x1 x2 x3 x4 x5 x6 : S1x512.Idx → EReal) (p : Fin 4096) (q : Fin 512) :
    k0_pay1 (F := Ideal) (k0_pay3 x6) (k0_pay5 x0 x1 x2 x3 x5) (k0_pay6 x0 x1 x2 x4 x5) (ix2 p q)
      = Charge.charge (x0 (ix2 p q)) (x1 (ix2 (0 : Fin 1) q)) (x2 (ix2 (0 : Fin 1) q)) (x3 (ix2 (0 : Fin 1) q))
          (x4 (ix2 (0 : Fin 1) q)) (x5 (ix2 (0 : Fin 1) q)) * x6 (ix2 (0 : Fin 1) q) := by
  unfold k0_pay1 k0_pay3 k0_pay5 k0_pay6 k0_pay4 k0_pay2
  simp only [shapeCast_self, mulf_apply, maximumf_apply, minimumf_apply, divf_apply, addf_apply, subf_apply, broadcast_apply,
    broadcastTo_1b_ab_apply]
  rfl

/-- The car of an entry of the block, as an index into a one-row array. -/
abbrev car (y : S4096x512.Idx) : S1x512.Idx := ix2 (n0 := 1) (n1 := 512) 0 (y 1)

/-- The same at any entry `y` of the block: sample `y 0`, car `y 1`. -/
theorem stored_at (x0 : S4096x512.Idx → EReal) (x1 x2 x3 x4 x5 x6 : S1x512.Idx → EReal) (y : S4096x512.Idx) :
    k0_pay1 (F := Ideal) (k0_pay3 x6) (k0_pay5 x0 x1 x2 x3 x5) (k0_pay6 x0 x1 x2 x4 x5) y
      = Charge.charge (x0 y) (x1 (car y)) (x2 (car y)) (x3 (car y)) (x4 (car y)) (x5 (car y)) * x6 (car y) :=
  (congrArg (fun z : S4096x512.Idx =>
      k0_pay1 (F := Ideal) (k0_pay3 x6) (k0_pay5 x0 x1 x2 x3 x5) (k0_pay6 x0 x1 x2 x4 x5) z
        = Charge.charge (x0 z) (x1 (car y)) (x2 (car y)) (x3 (car y)) (x4 (car y)) (x5 (car y)) * x6 (car y))
    (eq_ix2 y).symm).mp (stored_apply x0 x1 x2 x3 x4 x5 x6 (y 0) (y 1))

end Cert.Charge.Body

end
-- ==== Proof.Blocks.lean ====
/-
  From the blocks to the whole array.

  The region walks eight grid points; point `t` stages samples `4096 t … 4096 t + 4095` of the request (all 512 cars) and,
  at every point, the same six one-row arrays; it writes back samples `4096 t … 4096 t + 4095` of the output. The stored
  block is the rule applied entry by entry (the body, read at an entry), so what point `t` writes back is block `t` of ONE
  whole-array function `Out` of the arrays as the region finds them: at sample `s`, car `q`, the rule's amount for the
  request at `(s, q)` and the rows at `q`, times the indicator row at `q`. The eight blocks tile the 32768 samples — sample
  `s` lies in block `s / 4096` —, so after the run the output array IS `Out`.

  Last, the rows are per-car columns recast as one row and the indicator row is the indicator of a bit column; read through
  that, and with the product by an indicator turned into a choice, `Out` broadcast to the three-axis result is the rule's
  `G` of the columns (`whole_eq`).
-/
import proofs.«155006_j57595511439508_1_alg».proof.Proof.Gen.KernelIdeal.Frame
import proofs.«155006_j57595511439508_1_alg».proof.Proof.Body
import Idealize.ShloMosaic.Lib.Pipeline.Value
import Idealize.ShloMosaic.Lib.ValueLayout

set_option maxRecDepth 16384

noncomputable section

namespace Cert.Charge.Blocks

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The car of an entry of a block, as an index into a one-row array. -/
abbrev car (y : S4096x512.Idx) : S1x512.Idx := ix2 (n0 := 1) (n1 := 512) 0 (y 1)
/-- The car of an entry of the whole array, as an index into a one-row array. -/
abbrev carOf (i : S32768x512.Idx) : S1x512.Idx := ix2 (n0 := 1) (n1 := 512) 0 (i 1)

/-- Window `w`'s array as the region finds it. -/
abbrev arr (c : Dev nD) (w : Fin cfg0.W) : Buf (Elt Ideal) ((c : Thread nD τ).loc (Pipeline.arrRef spec0 w)) :=
  V m c (Pipeline.arrRef spec0 w)

/-- The output array as one function of the request and the six one-row arrays: at sample `j 0`, car `j 1`, the rule's
    amount for the request there and the rows at the car, times the indicator row at the car. -/
def Out (x : S32768x512.Idx → EReal) (lo hi adLo socLo soc on : S1x512.Idx → EReal) : S32768x512.Idx → EReal :=
  fun j => Charge.charge (x j) (lo (carOf j)) (hi (carOf j)) (adLo (carOf j)) (socLo (carOf j)) (soc (carOf j)) * on (carOf j)

theorem origin : (![0, 0] : Fin 2 → Nat) = fun _ => 0 := funext fun a => by fin_cases a <;> rfl

/-- The printed index maps over the eight points: the request's window moves with the output's (block `t` of the samples,
    all cars); each row's window stays at its one block. -/
theorem idx_facts : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The amount times the indicator depends on its seven numbers only. -/
theorem amount_congr {x x' lo lo' hi hi' a a' s s' z z' o o' : EReal} (h0 : x = x') (h1 : lo = lo') (h2 : hi = hi')
    (h3 : a = a') (h4 : s = s') (h5 : z = z') (h6 : o = o') :
    Charge.charge x lo hi a s z * o = Charge.charge x' lo' hi' a' s' z' * o' := by
  subst h0 h1 h2 h3 h4 h5 h6; rfl

/-- The body's whole block: at sample `y 0`, car `y 1` of the block, the rule's amount for the request there and the rows at
    the car, times the indicator row at the car. -/
theorem out_block (x0 : S4096x512.Idx → EReal) (x1 x2 x3 x4 x5 x6 : S1x512.Idx → EReal) :
    out0_7 (F := Ideal) x0 x1 x2 x3 x4 x5 x6
      = fun y : S4096x512.Idx =>
          Charge.charge (x0 y) (x1 (car y)) (x2 (car y)) (x3 (car y)) (x4 (car y)) (x5 (car y)) * x6 (car y) := by
  unfold out0_7
  rw [View.canon_unit_zero origin]
  simp only [View.ld_unit_zero (S := S4096x512) origin, View.ld_unit_zero (S := S1x512) origin]
  funext y
  exact Body.stored_at x0 x1 x2 x3 x4 x5 x6 y

/-- The request's block at point `t` holds the entries the output's block does. -/
theorem emb_req (t : Fin cfg0.N) (j : S4096x512.Idx) :
    ((cfg0.win 0).blk t).view.emb j = ((cfg0.win 7).blk t).view.emb j := by
  obtain ⟨e70, e71, e00, e01, -⟩ := idx_facts t
  have hj0 : (j 0).val < 4096 := (j 0).isLt
  have hj1 : (j 1).val < 512 := (j 1).isLt
  funext a; apply Fin.ext
  match a with
  | ⟨0, _⟩ =>
    show win0_0.index t (0 : Fin 2) * 4096 + 1 * (j 0).val = win0_7.index t (0 : Fin 2) * 4096 + 1 * (j 0).val
    omega
  | ⟨1, _⟩ =>
    show win0_0.index t (1 : Fin 2) * 512 + 1 * (j 1).val = win0_7.index t (1 : Fin 2) * 512 + 1 * (j 1).val
    omega

/-- Window 1 (the interval's lower ends) has one block, the whole row: the car of a block entry is the car of the output's entry. -/
theorem emb_row1 (t : Fin cfg0.N) (j : S4096x512.Idx) :
    ((cfg0.win 1).blk t).view.emb (car j) = carOf (((cfg0.win 7).blk t).view.emb j) := by
  obtain ⟨e70, e71, e00, e01, e10, e11, e20, e21, e30, e31, e40, e41, e50, e51, e60, e61⟩ := idx_facts t
  have hj1 : (j 1).val < 512 := (j 1).isLt
  funext a; apply Fin.ext
  match a with
  | ⟨0, _⟩ => show win0_1.index t (0 : Fin 2) * 1 + 1 * 0 = 0; omega
  | ⟨1, _⟩ =>
    show win0_1.index t (1 : Fin 2) * 512 + 1 * (j 1).val = win0_7.index t (1 : Fin 2) * 512 + 1 * (j 1).val
    omega

/-- Window 2 (the interval's upper ends) has one block, the whole row: the car of a block entry is the car of the output's entry. -/
theorem emb_row2 (t : Fin cfg0.N) (j : S4096x512.Idx) :
    ((cfg0.win 2).blk t).view.emb (car j) = carOf (((cfg0.win 7).blk t).view.emb j) := by
  obtain ⟨e70, e71, e00, e01, e10, e11, e20, e21, e30, e31, e40, e41, e50, e51, e60, e61⟩ := idx_facts t
  have hj1 : (j 1).val < 512 := (j 1).isLt
  funext a; apply Fin.ext
  match a with
  | ⟨0, _⟩ => show win0_2.index t (0 : Fin 2) * 1 + 1 * 0 = 0; omega
  | ⟨1, _⟩ =>
    show win0_2.index t (1 : Fin 2) * 512 + 1 * (j 1).val = win0_7.index t (1 : Fin 2) * 512 + 1 * (j 1).val
    omega

/-- Window 3 (the discharge bounds) has one block, the whole row: the car of a block entry is the car of the output's entry. -/
theorem emb_row3 (t : Fin cfg0.N) (j : S4096x512.Idx) :
    ((cfg0.win 3).blk t).view.emb (car j) = carOf (((cfg0.win 7).blk t).view.emb j) := by
  obtain ⟨e70, e71, e00, e01, e10, e11, e20, e21, e30, e31, e40, e41, e50, e51, e60, e61⟩ := idx_facts t
  have hj1 : (j 1).val < 512 := (j 1).isLt
  funext a; apply Fin.ext
  match a with
  | ⟨0, _⟩ => show win0_3.index t (0 : Fin 2) * 1 + 1 * 0 = 0; omega
  | ⟨1, _⟩ =>
    show win0_3.index t (1 : Fin 2) * 512 + 1 * (j 1).val = win0_7.index t (1 : Fin 2) * 512 + 1 * (j 1).val
    omega

/-- Window 4 (the floors) has one block, the whole row: the car of a block entry is the car of the output's entry. -/
theorem emb_row4 (t : Fin cfg0.N) (j : S4096x512.Idx) :
    ((cfg0.win 4).blk t).view.emb (car j) = carOf (((cfg0.win 7).blk t).view.emb j) := by
  obtain ⟨e70, e71, e00, e01, e10, e11, e20, e21, e30, e31, e40, e41, e50, e51, e60, e61⟩ := idx_facts t
  have hj1 : (j 1).val < 512 := (j 1).isLt
  funext a; apply Fin.ext
  match a with
  | ⟨0, _⟩ => show win0_4.index t (0 : Fin 2) * 1 + 1 * 0 = 0; omega
  | ⟨1, _⟩ =>
    show win0_4.index t (1 : Fin 2) * 512 + 1 * (j 1).val = win0_7.index t (1 : Fin 2) * 512 + 1 * (j 1).val
    omega

/-- Window 5 (the charges) has one block, the whole row: the car of a block entry is the car of the output's entry. -/
theorem emb_row5 (t : Fin cfg0.N) (j : S4096x512.Idx) :
    ((cfg0.win 5).blk t).view.emb (car j) = carOf (((cfg0.win 7).blk t).view.emb j) := by
  obtain ⟨e70, e71, e00, e01, e10, e11, e20, e21, e30, e31, e40, e41, e50, e51, e60, e61⟩ := idx_facts t
  have hj1 : (j 1).val < 512 := (j 1).isLt
  funext a; apply Fin.ext
  match a with
  | ⟨0, _⟩ => show win0_5.index t (0 : Fin 2) * 1 + 1 * 0 = 0; omega
  | ⟨1, _⟩ =>
    show win0_5.index t (1 : Fin 2) * 512 + 1 * (j 1).val = win0_7.index t (1 : Fin 2) * 512 + 1 * (j 1).val
    omega

/-- Window 6 (the indicators) has one block, the whole row: the car of a block entry is the car of the output's entry. -/
theorem emb_row6 (t : Fin cfg0.N) (j : S4096x512.Idx) :
    ((cfg0.win 6).blk t).view.emb (car j) = carOf (((cfg0.win 7).blk t).view.emb j) := by
  obtain ⟨e70, e71, e00, e01, e10, e11, e20, e21, e30, e31, e40, e41, e50, e51, e60, e61⟩ := idx_facts t
  have hj1 : (j 1).val < 512 := (j 1).isLt
  funext a; apply Fin.ext
  match a with
  | ⟨0, _⟩ => show win0_6.index t (0 : Fin 2) * 1 + 1 * 0 = 0; omega
  | ⟨1, _⟩ =>
    show win0_6.index t (1 : Fin 2) * 512 + 1 * (j 1).val = win0_7.index t (1 : Fin 2) * 512 + 1 * (j 1).val
    omega

/-- For ANY request array `B0` and one-row arrays `B1 … B6`: the body's block over their blocks at point `t` is block `t` of
    `Out` of the arrays. The request's block at `t` holds the samples the output's block does; each row's one block is the
    whole row. -/
theorem block_eq (t : Fin cfg0.N) (B0 : S32768x512.Idx → EReal) (B1 B2 B3 B4 B5 B6 : S1x512.Idx → EReal) :
    (cfg0.win 7).cut (grid0.coords t) (fun y : S4096x512.Idx =>
        Charge.charge (((cfg0.win 0).blk t).view.read (Elt Ideal) B0 y)
          (((cfg0.win 1).blk t).view.read (Elt Ideal) B1 (car y)) (((cfg0.win 2).blk t).view.read (Elt Ideal) B2 (car y))
          (((cfg0.win 3).blk t).view.read (Elt Ideal) B3 (car y)) (((cfg0.win 4).blk t).view.read (Elt Ideal) B4 (car y))
          (((cfg0.win 5).blk t).view.read (Elt Ideal) B5 (car y))
          * ((cfg0.win 6).blk t).view.read (Elt Ideal) B6 (car y))
      = ((cfg0.win 7).blk t).view.read (Elt Ideal) (Out B0 B1 B2 B3 B4 B5 B6) := by
  funext j
  show Charge.charge (B0 (((cfg0.win 0).blk t).view.emb j))
        (B1 (((cfg0.win 1).blk t).view.emb (car j))) (B2 (((cfg0.win 2).blk t).view.emb (car j)))
        (B3 (((cfg0.win 3).blk t).view.emb (car j))) (B4 (((cfg0.win 4).blk t).view.emb (car j)))
        (B5 (((cfg0.win 5).blk t).view.emb (car j))) * B6 (((cfg0.win 6).blk t).view.emb (car j))
      = Out B0 B1 B2 B3 B4 B5 B6 (((cfg0.win 7).blk t).view.emb j)
  show _ = Charge.charge (B0 (((cfg0.win 7).blk t).view.emb j))
        (B1 (carOf (((cfg0.win 7).blk t).view.emb j))) (B2 (carOf (((cfg0.win 7).blk t).view.emb j)))
        (B3 (carOf (((cfg0.win 7).blk t).view.emb j))) (B4 (carOf (((cfg0.win 7).blk t).view.emb j)))
        (B5 (carOf (((cfg0.win 7).blk t).view.emb j))) * B6 (carOf (((cfg0.win 7).blk t).view.emb j))
  exact amount_congr (congrArg B0 (emb_req t j)) (congrArg B1 (emb_row1 t j)) (congrArg B2 (emb_row2 t j))
    (congrArg B3 (emb_row3 t j)) (congrArg B4 (emb_row4 t j)) (congrArg B5 (emb_row5 t j)) (congrArg B6 (emb_row6 t j))

/-- WHAT POINT `t` WRITES BACK is block `t` of `Out` of the arrays as the region finds them. -/
theorem flushed_eq (c : Dev nD) (t : Fin cfg0.N) :
    (dats m 0 c).flushed 7 t = ((cfg0.win 7).blk t).view.read (Elt Ideal)
      (Out (arr m c 0) (arr m c 1) (arr m c 2) (arr m c 3) (arr m c 4) (arr m c 5) (arr m c 6)) := by
  show (cfg0.win 7).cut (grid0.coords t) ((dats m 0 c).after 7 t) = _
  rw [after0_7, out_block]
  unfold iblk
  exact block_eq t (arr m c 0) (arr m c 1) (arr m c 2) (arr m c 3) (arr m c 4) (arr m c 5) (arr m c 6)

/-- An index of the output array is in point `t`'s block iff each coordinate is in the block's range on its axis. -/
theorem mem_blk (t : Fin cfg0.N) (i : S32768x512.Idx) :
    i ∈ ((cfg0.win 7).blk t).view.set ↔ ∀ a : Fin 2, win0_7.index t a * S4096x512.size a ≤ (i a).val
      ∧ (i a).val < win0_7.index t a * S4096x512.size a + S4096x512.size a := by
  show i ∈ ((View.whole main_v72).slice (win0_7.rect t)).set ↔ _
  rw [View.set_slice_whole, Rect.mem_set_unit]
  exact Iff.rfl

/-- Every index of the output array lies in some point's block: sample `s` in block `s / 4096`. -/
theorem cover (i : S32768x512.Idx) :
    ∃ t : Fin cfg0.N, (cfg0.win 7).flush t = true ∧ i ∈ ((cfg0.win 7).blk t).view.set := by
  have hi0 : (i 0).val < 32768 := (i 0).isLt
  have hi1 : (i 1).val < 512 := (i 1).isLt
  have hN : (i 0).val / 4096 < cfg0.N := by
    show _ < grid0.N
    rw [N_0]; omega
  obtain ⟨e70, e71, -⟩ := idx_facts ⟨(i 0).val / 4096, hN⟩
  refine ⟨⟨(i 0).val / 4096, hN⟩, flush0_7 _, ?_⟩
  rw [mem_blk]
  intro a
  match a with
  | ⟨0, _⟩ =>
    show win0_7.index ⟨(i 0).val / 4096, hN⟩ (0 : Fin 2) * 4096 ≤ (i 0).val
      ∧ (i 0).val < win0_7.index ⟨(i 0).val / 4096, hN⟩ (0 : Fin 2) * 4096 + 4096
    rw [e70]
    show (i 0).val / 4096 * 4096 ≤ (i 0).val ∧ (i 0).val < (i 0).val / 4096 * 4096 + 4096
    omega
  | ⟨1, _⟩ =>
    show win0_7.index ⟨(i 0).val / 4096, hN⟩ (1 : Fin 2) * 512 ≤ (i 1).val
      ∧ (i 1).val < win0_7.index ⟨(i 0).val / 4096, hN⟩ (1 : Fin 2) * 512 + 512
    rw [e71]
    omega

/-- THE OUTPUT ARRAY after the run is `Out` of the arrays as the region finds them. -/
theorem final (c : Dev nD) : (dats m 0 c).arrAt 7 cfg0.N
    = Out (arr m c 0) (arr m c 1) (arr m c 2) (arr m c 3) (arr m c 4) (arr m c 5) (arr m c 6) :=
  (dats m 0 c).arrAt_eq_of_cover 7 (Out (arr m c 0) (arr m c 1) (arr m c 2) (arr m c 3) (arr m c 4) (arr m c 5) (arr m c 6))
    (fun t _ => flushed_eq m c t) cover

/-- THE RESULT in the rule's words: when the six rows are per-car columns recast as one row, the indicator row the indicator of
    the bit column `on`, the output array broadcast to the three-axis result is the rule's `G` of the columns — each row read
    at a car is its column there, and the product by the indicator is the choice between the amount and zero. -/
theorem whole_eq (x : S32768x512.Idx → EReal) (lo hi adLo socLo soc : S512.Idx → EReal) (on : S512.Idx → BitVec 1) :
    broadcastInDim S32768x512x1 ![0, 1] bcast_S32768x512_S32768x512x1_0_1
        (Out x (shapeCast S1x512 lo shapeCasts_S512_S1x512) (shapeCast S1x512 hi shapeCasts_S512_S1x512) (shapeCast S1x512 adLo shapeCasts_S512_S1x512)
          (shapeCast S1x512 socLo shapeCasts_S512_S1x512) (shapeCast S1x512 soc shapeCasts_S512_S1x512) (shapeCast S1x512 (uitofp (F := Ideal) .f32 on) shapeCasts_S512_S1x512))
      = Charge.G x lo hi adLo socLo soc on := by
  funext i
  obtain ⟨p, q, u, rfl⟩ : ∃ (p : Fin 32768) (q : Fin 512) (u : Fin 1), i = ix3 p q u := ⟨i 0, i 1, i 2, eq_ix3 i⟩
  rw [broadcastInDim_apply _ bcast_S32768x512_S32768x512x1_0_1 _ (ix3 p q u) (ix2 p q) (fun a => by
    match a with
    | ⟨0, _⟩ => show p.val = if (32768 : Nat) = 1 then 0 else p.val; rw [if_neg (by decide)]
    | ⟨1, _⟩ => show q.val = if (512 : Nat) = 1 then 0 else q.val; rw [if_neg (by decide)])]
  unfold Out Charge.G
  simp only [shapeCast_a_1a_apply]
  exact Charge.mul_indicator _ _

end Cert.Charge.Blocks

end
-- ==== Proof.RowsLo.lean ====
/-
  The rows the kernel is launched on: the feasible interval's lower end.

  The lower end is the longest of the per-car columns: it is built on the upper end, the discharge bound and the floor of the
  state of charge. As for the other rows, composing the host operations that precede the region gives the row as a term of
  the four per-car inputs, and that term is operation for operation the reference's stage `val_main_v64`, as one row.
-/
import proofs.«155006_j57595511439508_1_alg».proof.Proof.Gen.KernelIdeal.Frame
import proofs.«155006_j57595511439508_1_alg».proof.Proof.Gen.ReferenceIdeal.Read
import Idealize.ShloMosaic.Lib.StableHlo.Run
import Idealize.ShloMosaic.PureOps.Ideal

noncomputable section

namespace Cert.Charge.Rows

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxRecDepth 8192 in
set_option maxHeartbeats 40000000 in
/-- The row of the feasible interval's lower ends is the reference's column `val_main_v64`, as one row. -/
theorem row_lo (c : Dev nD) :
    (V m c main_v66 : S1x512.Idx → EReal)
      = shapeCast S1x512
          (Cert.ReferenceIdeal.Read.val_main_v64 (F := Ideal) (m ((c.tc : Thread nD τ).loc main_arg1))
            (m ((c.tc : Thread nD τ).loc main_arg2)) (m ((c.tc : Thread nD τ).loc main_arg3))
            (m ((c.tc : Thread nD τ).loc main_arg4)))
          shapeCasts_S512_S1x512 := by
  dsimp only [V, V0]
  simp only [hostOps0, hostOps0_1, hostOps0_2, hostOps0_3, hostOps0_4, List.flatten_cons, List.flatten_nil, List.append_nil,
    List.cons_append, List.nil_append]
  after_results_simp
  rfl

end Cert.Charge.Rows

end
-- ==== Proof.RowsRest.lean ====
/-
  The rows the kernel is launched on: every row but the interval's lower end.

  Before the region the kernel's program works out the same per-car columns as the reference — by the same operations, in
  the same order, on the same words — and lays each out as a one-row array for the region to stage. Composing the host
  operations that precede the region gives each row as a term of the four per-car inputs; that term is, operation for
  operation, the reference's stage for the column, recast as one row. Here: the interval's upper end, the discharge bound,
  the floor of the state of charge, the charge itself and the indicator of the bit "still here".
-/
import proofs.«155006_j57595511439508_1_alg».proof.Proof.Gen.KernelIdeal.Frame
import proofs.«155006_j57595511439508_1_alg».proof.Proof.Gen.ReferenceIdeal.Read
import Idealize.ShloMosaic.Lib.StableHlo.Run
import Idealize.ShloMosaic.PureOps.Ideal

noncomputable section

namespace Cert.Charge.Rows

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxRecDepth 8192 in
set_option maxHeartbeats 40000000 in
/-- The row of the feasible interval's upper ends is the reference's column `val_main_v42`, as one row. -/
theorem row_hi (c : Dev nD) :
    (V m c main_v67 : S1x512.Idx → EReal)
      = shapeCast S1x512
          (Cert.ReferenceIdeal.Read.val_main_v42 (F := Ideal) (m ((c.tc : Thread nD τ).loc main_arg2))
            (m ((c.tc : Thread nD τ).loc main_arg3)) (m ((c.tc : Thread nD τ).loc main_arg4)))
          shapeCasts_S512_S1x512 := by
  dsimp only [V, V0]
  simp only [hostOps0, hostOps0_1, hostOps0_2, hostOps0_3, hostOps0_4, List.flatten_cons, List.flatten_nil, List.append_nil,
    List.cons_append, List.nil_append]
  after_results_simp
  rfl

set_option maxRecDepth 8192 in
set_option maxHeartbeats 40000000 in
/-- The row of discharge bounds is the reference's column `val_main_v9`, as one row. -/
theorem row_adLo (c : Dev nD) :
    (V m c main_v68 : S1x512.Idx → EReal)
      = shapeCast S1x512
          (Cert.ReferenceIdeal.Read.val_main_v9 (F := Ideal) (m ((c.tc : Thread nD τ).loc main_arg3))
            (m ((c.tc : Thread nD τ).loc main_arg4)))
          shapeCasts_S512_S1x512 := by
  dsimp only [V, V0]
  simp only [hostOps0, hostOps0_1, hostOps0_2, hostOps0_3, hostOps0_4, List.flatten_cons, List.flatten_nil, List.append_nil,
    List.cons_append, List.nil_append]
  after_results_simp
  rfl

set_option maxRecDepth 8192 in
set_option maxHeartbeats 40000000 in
/-- The row of floors of the state of charge is the reference's column `val_main_v20`, as one row. -/
theorem row_socLo (c : Dev nD) :
    (V m c main_v69 : S1x512.Idx → EReal)
      = shapeCast S1x512
          (Cert.ReferenceIdeal.Read.val_main_v20 (F := Ideal) (m ((c.tc : Thread nD τ).loc main_arg1)))
          shapeCasts_S512_S1x512 := by
  dsimp only [V, V0]
  simp only [hostOps0, hostOps0_1, hostOps0_2, hostOps0_3, hostOps0_4, List.flatten_cons, List.flatten_nil, List.append_nil,
    List.cons_append, List.nil_append]
  after_results_simp
  rfl

set_option maxRecDepth 8192 in
set_option maxHeartbeats 40000000 in
/-- The row of charges is the third input, as one row. -/
theorem row_soc (c : Dev nD) :
    (V m c main_v70 : S1x512.Idx → EReal)
      = shapeCast S1x512
          (m ((c.tc : Thread nD τ).loc main_arg2))
          shapeCasts_S512_S1x512 := by
  dsimp only [V, V0]
  simp only [hostOps0, hostOps0_1, hostOps0_2, hostOps0_3, hostOps0_4, List.flatten_cons, List.flatten_nil, List.append_nil,
    List.cons_append, List.nil_append]
  after_results_simp
  rfl

set_option maxRecDepth 8192 in
set_option maxHeartbeats 40000000 in
/-- The row of indicators is the indicator (`1` or `0`, exactly) of the reference's bit column `val_main_v1`, as one row. -/
theorem row_on (c : Dev nD) :
    (V m c main_v71 : S1x512.Idx → EReal)
      = shapeCast S1x512
          (uitofp (F := Ideal) .f32
              (Cert.ReferenceIdeal.Read.val_main_v1 (F := Ideal) (m ((c.tc : Thread nD τ).loc main_arg1))))
          shapeCasts_S512_S1x512 := by
  dsimp only [V, V0]
  simp only [hostOps0, hostOps0_1, hostOps0_2, hostOps0_3, hostOps0_4, List.flatten_cons, List.flatten_nil, List.append_nil,
    List.cons_append, List.nil_append]
  after_results_simp
  rfl

end Cert.Charge.Rows

end
-- ==== Proof.KernelRun.lean ====
/-
  The kernel's program, run: its result is the rule applied to the reference's own per-car columns.

  The region leaves the output array at the whole-array function of the request and the six rows; the rows are the
  reference's per-car columns recast as one row (the indicator row the indicator of its bit column); and the one host
  operation after the region broadcasts the output array to the three-axis result. Together: the result is the rule's `G` of
  the request and those columns — the very function the reference computes.
-/
import proofs.«155006_j57595511439508_1_alg».proof.Proof.Blocks
import proofs.«155006_j57595511439508_1_alg».proof.Proof.RowsLo
import proofs.«155006_j57595511439508_1_alg».proof.Proof.RowsRest
import Idealize.ShloMosaic.Lib.StableHlo.Run

set_option maxRecDepth 16384

noncomputable section

namespace Cert.Charge.Run

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! The five inputs on core `c`: the request, and per car the time left, the charge, the time until discharging is allowed
    and the dischargeable charge. -/

abbrev req (c : Dev nD) : S32768x512.Idx → EReal := m ((c.tc : Thread nD τ).loc main_arg0)
abbrev tRem (c : Dev nD) : S512.Idx → EReal := m ((c.tc : Thread nD τ).loc main_arg1)
abbrev soc (c : Dev nD) : S512.Idx → EReal := m ((c.tc : Thread nD τ).loc main_arg2)
abbrev tDis (c : Dev nD) : S512.Idx → EReal := m ((c.tc : Thread nD τ).loc main_arg3)
abbrev socDis (c : Dev nD) : S512.Idx → EReal := m ((c.tc : Thread nD τ).loc main_arg4)

/-! The reference's per-car columns of them: the feasible interval's ends, the discharge bound, the floor of the state of
    charge, and the bit "still here". -/

abbrev lo (c : Dev nD) : S512.Idx → EReal :=
  Cert.ReferenceIdeal.Read.val_main_v64 (F := Ideal) (tRem m c) (soc m c) (tDis m c) (socDis m c)
abbrev hi (c : Dev nD) : S512.Idx → EReal :=
  Cert.ReferenceIdeal.Read.val_main_v42 (F := Ideal) (soc m c) (tDis m c) (socDis m c)
abbrev adLo (c : Dev nD) : S512.Idx → EReal := Cert.ReferenceIdeal.Read.val_main_v9 (F := Ideal) (tDis m c) (socDis m c)
abbrev socLo (c : Dev nD) : S512.Idx → EReal := Cert.ReferenceIdeal.Read.val_main_v20 (F := Ideal) (tRem m c)
abbrev on (c : Dev nD) : S512.Idx → BitVec 1 := Cert.ReferenceIdeal.Read.val_main_v1 (F := Ideal) (tRem m c)

/-- A per-car column as a one-row array. -/
abbrev row (v : S512.Idx → EReal) : S1x512.Idx → EReal := shapeCast S1x512 v shapeCasts_S512_S1x512

/-- `Out` depends on its seven arrays only. -/
theorem out_congr {x x' : S32768x512.Idx → EReal} {l l' h h' a a' s s' z z' o o' : S1x512.Idx → EReal}
    (h0 : x = x') (h1 : l = l') (h2 : h = h') (h3 : a = a') (h4 : s = s') (h5 : z = z') (h6 : o = o') :
    Blocks.Out x l h a s z o = Blocks.Out x' l' h' a' s' z' o' := by
  subst h0 h1 h2 h3 h4 h5 h6; rfl

/-- The output array after the run, over the inputs: the request as launched, each row the reference's column as one row, the
    indicator row the indicator of its bit column. -/
theorem out_final (c : Dev nD) : (dats m 0 c).arrAt 7 cfg0.N
    = Blocks.Out (req m c) (row (lo m c)) (row (hi m c)) (row (adLo m c)) (row (socLo m c)) (row (soc m c))
        (row (uitofp (F := Ideal) .f32 (on m c))) :=
  (Blocks.final m c).trans (out_congr (V_main_arg0 m c) (Rows.row_lo m c) (Rows.row_hi m c) (Rows.row_adLo m c)
    (Rows.row_socLo m c) (Rows.row_soc m c) (Rows.row_on m c))

/-- The program's result after the host operation that follows the region: the rule's `G` of the request and the
    reference's columns. -/
theorem result_eq (c : Dev nD) : Pipeline.afterTail₀ cfgs (dats m) 0 (V0 m) [hostOps1] c main_v73
    = Charge.G (req m c) (lo m c) (hi m c) (adLo m c) (socLo m c) (soc m c) (on m c) := by
  unfold Pipeline.afterTail₀
  show StableHlo.after hostOps1 _ (Proc.devRef .tc main_v73) = _
  after_results
  refine (congrArg (broadcastInDim S32768x512x1 ![0, 1] bcast_S32768x512_S32768x512x1_0_1)
    ((Pipeline.withArrays_arr spec0 launch0.win.arr_inj c (V0 m c) (fun w => (dats m 0 c).arrAt w cfg0.N) 7).trans
      (out_final m c))).trans ?_
  exact Blocks.whole_eq _ _ _ _ _ _ _

/-- THE KERNEL'S RUN, read: every weakly fair execution terminates with the result at the rule's `G` of the request and the
    reference's columns of the per-car inputs, the arguments unchanged. -/
theorem run : θ_run defs (onTc (τ := τ) (main (F := Ideal))) ⟨m, fun _ => 0, ρ⟩ fun r => ∀ c : Dev nD,
      r.2.mem ((c.tc : Thread nD τ).loc main_v73)
        = Charge.G (req m c) (lo m c) (hi m c) (adLo m c) (socLo m c) (soc m c) (on m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v73 (Pipeline.mem_restRefs_of main_v73 (by decide) (by decide))).trans (result_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c)⟩)
    (run_main m ρ)

end Cert.Charge.Run

end
-- ==== Proof.lean ====
/-
  The certificate: an elementwise charging rule in a kernel against the same rule in plain array code.

  Both programs first work out, per car, a feasible interval for the net action, a discharge bound, a floor for the state
  of charge and whether the car is still here — by the same host operations on the same words. The reference then applies
  the rule to the whole 32768 × 512 request at once and chooses between the amount and zero by the "still here" bit; the
  kernel's program lays the per-car columns out as rows, applies the rule block of 4096 samples by block in a kernel whose
  last step multiplies by the bit's indicator, and broadcasts the result to three axes. Over the extended reals the two are
  one function of the inputs, `Charge.G` of the request and the per-car columns (Proof/Rule.lean): the reference by reading
  its stages at an entry (Proof/RefRule.lean), the kernel by its body at an entry (Proof/Body.lean), its blocks tiling the
  output (Proof/Blocks.lean) and its rows being the reference's columns (Proof/RowsLo.lean, Proof/RowsRest.lean), joined in
  Proof/KernelRun.lean. No finiteness of the inputs is needed: `a * 1 = a` and `a * 0 = 0` hold on all of the extended reals
  (Proof/LibIndicator.lean), and every other step is the same operation on both sides.

  The three frames are the generated ones (the reference's is its generated run with the result dropped); nothing was
  rewritten by the ideal pass, so `preserves` is trivial.
-/
import proofs.«155006_j57595511439508_1_alg».proof.Defs
import proofs.«155006_j57595511439508_1_alg».proof.Proof.Gen.Kernel
import proofs.«155006_j57595511439508_1_alg».proof.Proof.Gen.Kernel.Skeleton
import proofs.«155006_j57595511439508_1_alg».proof.Proof.Gen.Kernel.Launch
import proofs.«155006_j57595511439508_1_alg».proof.Proof.Gen.Kernel.Points
import proofs.«155006_j57595511439508_1_alg».proof.Proof.Gen.Kernel.Frame
import proofs.«155006_j57595511439508_1_alg».proof.Proof.Gen.KernelIdeal
import proofs.«155006_j57595511439508_1_alg».proof.Proof.Gen.KernelIdeal.Skeleton
import proofs.«155006_j57595511439508_1_alg».proof.Proof.Gen.KernelIdeal.Launch
import proofs.«155006_j57595511439508_1_alg».proof.Proof.Gen.KernelIdeal.Points
import proofs.«155006_j57595511439508_1_alg».proof.Proof.Gen.KernelIdeal.Frame
import proofs.«155006_j57595511439508_1_alg».proof.Proof.Gen.ReferenceIdeal
import proofs.«155006_j57595511439508_1_alg».proof.Proof.Gen.ReferenceIdeal.Run
import proofs.«155006_j57595511439508_1_alg».proof.Proof.Gen.ReferenceIdeal.Read
import proofs.«155006_j57595511439508_1_alg».proof.Proof.Gen.Pre_finite_inputs
import proofs.«155006_j57595511439508_1_alg».proof.Proof.Rule
import proofs.«155006_j57595511439508_1_alg».proof.Proof.RefRule
import proofs.«155006_j57595511439508_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five inputs both programs end with the result at `Charge.G` of the request and the
    per-car columns: the kernel's program by its run read back, the reference by its generated run, whose term is its last
    stage and that stage the rule. -/
theorem algebraic : Cert.algebraic_KernelIdeal_ReferenceIdeal := by
  intro m ρ m' ρ' _ hagree
  refine ⟨fun c => Cert.Charge.G (Cert.Charge.Run.req m c) (Cert.Charge.Run.lo m c) (Cert.Charge.Run.hi m c)
    (Cert.Charge.Run.adLo m c) (Cert.Charge.Run.socLo m c) (Cert.Charge.Run.soc m c) (Cert.Charge.Run.on m c),
    Cert.Charge.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v98_eq, Cert.Charge.Ref.result_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
